-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  main_v3
-- ==== Kernel.lean ====
abbrev S16384x2048 : Shape := ⟨2, ![16384, 2048]⟩
abbrev S1x1 : Shape := ⟨2, ![1, 1]⟩
abbrev S1024x2048 : Shape := ⟨2, ![1024, 2048]⟩
abbrev S1x2048 : Shape := ⟨2, ![1, 2048]⟩
abbrev S2048 : Shape := ⟨1, ![2048]⟩
abbrev S1 : Shape := ⟨1, ![1]⟩
abbrev S_ : Shape := ⟨0, ![]⟩

abbrev nBuf : Space → Nat
  | .hbm => 3
  | .vmem => 4
  | .smem => 0
  | _ => 0

abbrev bufTy : (tb : Table) → Fin (tcTables nBuf tb) → BufTy
  | .hbm, ⟨0, _⟩ => ⟨S16384x2048, .f32⟩
  | .hbm, ⟨1, _⟩ => ⟨S1x1, .f32⟩
  | .hbm, ⟨2, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S1x1, .f32⟩
  | .local _ .vmem, ⟨3, _⟩ => ⟨S1x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v12 : BitVec 1 := Scalar.cmpi .eq arg0 c15_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1024x2048_S1024x2048_0_0 : ∀ a, (![0, 0] : Fin 2 → Nat) a + S1024x2048.size a ≤ S1024x2048.size a
  h_S1024x2048 : 0 < S1024x2048.numel
  reduces_S1024x2048_S2048 : S1024x2048.Reduces [0] S2048
  shapeCasts_S2048_S1x2048 : S2048.ShapeCasts S1x2048
  reduces_S1x2048_S1 : S1x2048.Reduces [1] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S16384x2048 : Shape := ⟨2, ![16384, 2048]⟩
abbrev S_ : Shape := ⟨0, ![]⟩
abbrev S2048 : Shape := ⟨1, ![2048]⟩

abbrev nBuf : Space → Nat
  | .hbm => 14
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S_, .f32⟩
  | .hbm, ⟨2, _⟩ => ⟨S_, .f32⟩
  | .hbm, ⟨3, _⟩ => ⟨S16384x2048, .f32⟩
  | .hbm, ⟨4, _⟩ => ⟨S16384x2048, .f32⟩
  | .hbm, ⟨5, _⟩ => ⟨S16384x2048, .f32⟩
  | .hbm, ⟨6, _⟩ => ⟨S_, .f32⟩
  | .hbm, ⟨7, _⟩ => ⟨S2048, .f32⟩
  | .hbm, ⟨8, _⟩ => ⟨S_, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S_S16384x2048 : S_.BroadcastsInDim S16384x2048 (![] : Fin 0 → Fin S16384x2048.rank)
  reducesTo_S16384x2048_S2048_d0 : S16384x2048.ReducesTo [0] S2048
  h_S_ : 0 < S_.numel
  bcast_S_S2048 : S_.BroadcastsInDim S2048 (![] : Fin 0 → Fin S2048.rank)
  reducesTo_S2048_S_d0 : S2048.ReducesTo [0] S_

variable [Facts₀]

class Facts : Prop extends Facts₀ where

variable [Facts]
-- ==== Proof.CaseValues.lean ====
/-
  What one run of the kernel's body leaves behind, case by case, as plain functions of what it read — for any float
  instance.

  The body keeps a row of 2048 partial column sums in a scratch buffer that survives from one grid point to the next.
  At every point it adds, to each column's partial sum, the squares of the 1024 entries of that column in the point's
  row block ("the update": acc ↦ acc + Σᵣ x(r,·)²). At the first point it zeroes the row first, so the update starts
  from the zero row; at the last point it then reads the finished row back and stores the loss (the row scaled, taken
  away from 1, absolute value, summed along the row) into the one-element output block.

    first point   scratch := update(x, 0)
    middle points scratch := update(x, previous scratch)
    last point    scratch := update(x, previous scratch),   output := finish(that scratch)

  Each is the value of the covering store that case's run found; a store through the whole buffer leaves its payload,
  and a load through the whole buffer of what such a store left reads that payload back.
-/
import proofs.«107510_j25975962206274_2_alg».proof.Proof.Gen.KernelIdeal.Frame
import Idealize.ShloMosaic.Lib.Pipeline.Value
import Idealize.ShloMosaic.Lib.Tactic

noncomputable section

namespace Cert.KernelIdeal.CaseValues

open Idealize.ShloMosaic Idealize.ShloMosaic.TcCoe Idealize.SL.Sem
open Cert.KernelIdeal Cert.KernelIdeal.Gen

variable {F : FTy → Type} [FloatOps F]

/-- The zero offsets of a rank-2 buffer. -/
theorem hz : (![0, 0] : Fin 2 → Nat) = fun _ => 0 := funext fun a => by fin_cases a <;> rfl

/-- FIRST POINT: the scratch row ends at the update of the zero row by the point's row block. -/
theorem scratch_first (c : Dev nD) (i : grid0.Coords) (a1 : Memref sig .tc .vmem S1024x2048 .f32) (h1 : a1.IsWhole)
    (a2 : Memref sig .tc .vmem S1x1 .f32) (h2 : a2.IsWhole) (a3 : Memref sig .tc .vmem S1x2048 .f32) (h3 : a3.IsWhole)
    (hc0 : cond0_0 i) (hc1 : ¬cond0_1 i) (x0 : Vec F S1024x2048 .f32) :
    sout0_A_0 c i a1 h1 a2 h2 a3 h3 hc0 hc1 x0 = k0_pay2 x0 k0_pay1 := by
  unfold sout0_A_0
  rw [View.read_writes_eq_canon _ _ _ (scover0_A_0 c i a1 h1 a2 h2 a3 h3 hc0 hc1 x0)]
  unfold kernelRun0_A
  dsimp only
  sl_unfold_words
  rw [View.canon_cons_unit_zero (S := S1x2048) hz]
  simp only [View.readAt_eq_ld, h1.read_unread, View.ld_unit_zero (S := S1024x2048) hz,
    View.readCov_unit_zero (S := S1x2048) _ hz]

/-- MIDDLE POINTS: the scratch row ends at the update of what the point before left. -/
theorem scratch_middle (c : Dev nD) (i : grid0.Coords) (a1 : Memref sig .tc .vmem S1024x2048 .f32) (h1 : a1.IsWhole)
    (a2 : Memref sig .tc .vmem S1x1 .f32) (h2 : a2.IsWhole) (a3 : Memref sig .tc .vmem S1x2048 .f32) (h3 : a3.IsWhole)
    (hc0 : ¬cond0_0 i) (hc1 : ¬cond0_1 i) (x0 : Vec F S1024x2048 .f32) (xs0 : Vec F S1x2048 .f32) :
    sout0_B_0 c i a1 h1 a2 h2 a3 h3 hc0 hc1 x0 xs0 = k0_pay2 x0 xs0 := by
  unfold sout0_B_0
  rw [View.read_writes_eq_canon _ _ _ (scover0_B_0 c i a1 h1 a2 h2 a3 h3 hc0 hc1 x0 xs0)]
  unfold kernelRun0_B
  dsimp only
  rw [View.canon_unit_zero hz]
  simp only [View.readAt_eq_ld, h1.read_unread, h3.read_unread, View.ld_unit_zero (S := S1024x2048) hz,
    View.ld_unit_zero (S := S1x2048) hz]

/-- LAST POINT, the scratch: the same update. -/
theorem scratch_last (c : Dev nD) (i : grid0.Coords) (a1 : Memref sig .tc .vmem S1024x2048 .f32) (h1 : a1.IsWhole)
    (a2 : Memref sig .tc .vmem S1x1 .f32) (h2 : a2.IsWhole) (a3 : Memref sig .tc .vmem S1x2048 .f32) (h3 : a3.IsWhole)
    (hc0 : ¬cond0_0 i) (hc1 : cond0_1 i) (x0 : Vec F S1024x2048 .f32) (xs0 : Vec F S1x2048 .f32) :
    sout0_C_0 c i a1 h1 a2 h2 a3 h3 hc0 hc1 x0 xs0 = k0_pay2 x0 xs0 := by
  unfold sout0_C_0
  rw [View.read_writes_eq_canon _ _ _ (scover0_C_0 c i a1 h1 a2 h2 a3 h3 hc0 hc1 x0 xs0)]
  unfold kernelRun0_C
  dsimp only
  sl_unfold_words
  rw [View.canon_unit_zero hz]
  simp only [View.readAt_eq_ld, h1.read_unread, h3.read_unread, View.ld_unit_zero (S := S1024x2048) hz,
    View.ld_unit_zero (S := S1x2048) hz]

/-- LAST POINT, the output block: the finish of the row the update just stored (read back through the whole buffer). -/
theorem out_last (c : Dev nD) (i : grid0.Coords) (a1 : Memref sig .tc .vmem S1024x2048 .f32) (h1 : a1.IsWhole)
    (a2 : Memref sig .tc .vmem S1x1 .f32) (h2 : a2.IsWhole) (a3 : Memref sig .tc .vmem S1x2048 .f32) (h3 : a3.IsWhole)
    (hc0 : ¬cond0_0 i) (hc1 : cond0_1 i) (x0 : Vec F S1024x2048 .f32) (xs0 : Vec F S1x2048 .f32) :
    out0_C_1 c i a1 h1 a2 h2 a3 h3 hc0 hc1 x0 xs0 = k0_pay3 (k0_pay2 x0 xs0) := by
  unfold out0_C_1
  rw [View.read_writes_eq_canon _ _ _ (cover0_C_1 c i a1 h1 a2 h2 a3 h3 hc0 hc1 x0 xs0)]
  unfold kernelRun0_C
  dsimp only
  sl_unfold_words
  rw [View.canon_unit_zero hz]
  simp only [View.readAt_eq_ld, h1.read_unread, h3.read_unread, View.ld_unit_zero (S := S1024x2048) hz,
    View.ld_unit_zero (S := S1x2048) hz, View.readCov_unit_zero (S := S1x2048) _ hz]

end Cert.KernelIdeal.CaseValues

end
-- ==== Proof.Spec.lean ====
/-
  The result both programs compute, as ONE function of the input array Y : [16384, 2048], over the extended reals:

      loss Y = Σⱼ | 1 − (Σᵢ Y(i, j)·Y(i, j)) · 2⁻¹⁴ |          (j over the 2048 columns, i over the 16384 rows)

  — per column, the sum of the squares of its entries scaled by 1/n, and then the distance of that number from 1,
  summed over the columns. The absolute value is spelled max(x, −x), as both programs' abs reads on the extended reals.
  The constants are kept as the float words the programs spell (1.0 and 2⁻¹⁴): the same word on both sides is never
  evaluated.
-/
import Idealize.ShloMosaic.Lib.ValueIdx
import Idealize.ShloMosaic.PureOps.Ideal.Laws

noncomputable section

namespace Cert.Spec

open Idealize.ShloMosaic Idealize.ShloMosaic.ValueIdx

/-- The input's shape and the scalar result's. -/
abbrev SY : Shape := ⟨2, ![16384, 2048]⟩
abbrev S0 : Shape := ⟨0, ![]⟩

/-- Column `j`'s sum of squares. -/
def colSumSq (Y : SY.Idx → EReal) (j : Fin 2048) : EReal := ∑ i : Fin 16384, Y (ix2 i j) * Y (ix2 i j)

/-- |1 − d·2⁻¹⁴| of a column's sum of squares `d`. -/
def dev (d : EReal) : EReal :=
  max (Ideal.ofBits .f32 0x3F800000#32 - d * Ideal.ofBits .f32 0x38800000#32)
    (-(Ideal.ofBits .f32 0x3F800000#32 - d * Ideal.ofBits .f32 0x38800000#32))

/-- The loss: the columns' deviations summed. -/
def loss (Y : SY.Idx → EReal) : EReal := ∑ j : Fin 2048, dev (colSumSq Y j)

/-- The result array (a scalar: one index). -/
def G (Y : SY.Idx → EReal) : S0.Idx → EReal := fun _ => loss Y

/-- A sum over the indices of a rank-1 shape is the sum over its one coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

end Cert.Spec

end
-- ==== Proof.Payloads.lean ====
/-
  The body's three stored values, read entry by entry on the extended reals.

    the zero row        every entry is 0;
    the update          entry j of update(x, acc) is acc(j) + Σᵣ x(r, j)·x(r, j), r over the block's 1024 rows: a sum down
                        column j of the block of squares, laid back as a row;
    the finish          finish(acc) is Σⱼ |1 − acc(j)·2⁻¹⁴| over the 2048 entries of the row, laid into the one-element block.

  A sum over one axis of a rank-2 array, read at the remaining coordinate, is the finite sum over the reduced coordinate;
  adding or dropping a unit axis does not move an entry.
-/
import proofs.«107510_j25975962206274_2_alg».proof.Proof.Gen.KernelIdeal.Skeleton
import proofs.«107510_j25975962206274_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payloads

open Idealize.ShloMosaic Idealize.ShloMosaic.TcCoe Idealize.ShloMosaic.ValueIdx
open Cert.KernelIdeal Cert.KernelIdeal.Gen

/-- The zero row: every entry is the extended real 0. -/
theorem zero_row_apply (y : S1x2048.Idx) : k0_pay1 (F := Ideal) y = 0 := by
  unfold k0_pay1
  rw [shapeCast_self]
  exact Ideal.ofBits_zero_f32

/-- A [1024, 2048] array summed down its columns, at column `j`: the sum over the 1024 rows. -/
theorem colsum_apply (v : FVec Ideal S1024x2048 .f32) (h : S1024x2048.Reduces [0] S2048) (hφ : FKind.Formats .f32)
    (hacc : (0x00000000#32 : BitVec 32) = FKind.add.neutral .f32 hφ) (j : Fin 2048) :
    multiReduction .add [0] S2048 v 0x00000000#32 h hφ hacc (ix1 j) = ∑ r : Fin 1024, v (ix2 r j) := by
  refine (Ideal.multiReduction_add_single v 0x00000000#32 h hφ hacc (ix1 j)).trans ?_
  exact Finset.sum_congr rfl fun r _ =>
    congrArg v (funext fun a => Fin.ext (by match a with | ⟨0, _⟩ => rfl | ⟨1, _⟩ => rfl))

/-- A [1, 2048] array summed along its row, at the row's coordinate `w`: the sum over the 2048 entries. -/
theorem rowsum_apply (v : FVec Ideal S1x2048 .f32) (h : S1x2048.Reduces [1] S1) (hφ : FKind.Formats .f32)
    (hacc : (0x00000000#32 : BitVec 32) = FKind.add.neutral .f32 hφ) (w : Fin 1) :
    multiReduction .add [1] S1 v 0x00000000#32 h hφ hacc (ix1 w) = ∑ j : Fin 2048, v (ix2 w j) := by
  refine (Ideal.multiReduction_add_single v 0x00000000#32 h hφ hacc (ix1 w)).trans ?_
  exact Finset.sum_congr rfl fun j _ =>
    congrArg v (funext fun a => Fin.ext (by match a with | ⟨0, _⟩ => rfl | ⟨1, _⟩ => rfl))

/-- THE UPDATE at entry `j`: the old partial sum plus the block's column `j` of squares. -/
theorem update_apply (x : Vec Ideal S1024x2048 .f32) (acc : Vec Ideal S1x2048 .f32) (u : Fin 1) (j : Fin 2048) :
    k0_pay2 (F := Ideal) x acc (ix2 u j) = acc (ix2 u j) + ∑ r : Fin 1024, x (ix2 r j) * x (ix2 r j) := by
  unfold k0_pay2
  rw [shapeCast_self]
  show acc (ix2 u j) + _ = _
  refine congrArg (acc (ix2 u j) + ·) ?_
  refine (shapeCast_a_1a_apply _ _ u j).trans ?_
  exact colsum_apply (mulf x x) _ _ _ j

/-- THE FINISH: the row's deviations |1 − acc(j)·2⁻¹⁴| summed, at the block's one entry. -/
theorem finish_apply (acc : Vec Ideal S1x2048 .f32) (u w : Fin 1) :
    k0_pay3 (F := Ideal) acc (ix2 u w) = ∑ j : Fin 2048, Cert.Spec.dev (acc (ix2 w j)) := by
  unfold k0_pay3
  refine (shapeCast_a_1a_apply _ _ u w).trans ?_
  refine (rowsum_apply _ _ _ _ w).trans ?_
  rfl

end Cert.KernelIdeal.Payloads

end
-- ==== Proof.ColumnLaw.lean ====
/-
  The arithmetic that joins the two programs, on the extended reals, with no program in sight.

  One program scales every entry of a column by 1/√n before squaring and summing: Σᵢ (yᵢ / √n)·(yᵢ / √n), with n = 16384.
  The other sums the squares first, block of 1024 rows by block, and scales the total once by the float 2⁻¹⁴: (Σᵢ yᵢ·yᵢ)·2⁻¹⁴.
  They agree on EVERY extended real, the infinities included, so nothing here asks the entries to be finite:
    • √16384 = 128, and dividing by a nonzero real is multiplying by its reciprocal, whatever the dividend;
    • products of extended reals commute and associate, so (y·k)·(y·k) = (y·y)·(k·k), and k·k = (1/128)² = 2⁻¹⁴;
    • a factor that is a nonnegative REAL distributes over any sum of extended reals (an infinite factor would not).
  The running sum over the first blocks of rows is written over ℕ-indexed terms so that adding one more block is
  splitting a range.
-/
import Idealize.ShloMosaic.PureOps.Ideal
import Idealize.ShloMosaic.PureOps.Ideal.Laws

noncomputable section

namespace Cert.ColumnLaw

open Idealize.ShloMosaic

/-- The word `0x46800000` denotes 2¹⁴ = 16384. -/
theorem ofBits_n : Ideal.ofBits .f32 0x46800000#32 = ((16384 : ℝ) : EReal) := by
  simp [Ideal.ofBits, Ideal.ieee, -EReal.coe_mul]; norm_num

/-- The word `0x38800000` denotes 2⁻¹⁴ = 1/16384, exactly: a power of two, no rounding in it. -/
theorem ofBits_inv_n : Ideal.ofBits .f32 0x38800000#32 = ((1 / 16384 : ℝ) : EReal) := by
  simp [Ideal.ofBits, Ideal.ieee, -EReal.coe_mul]; norm_num

/-- √16384 = 128. -/
theorem sqrt_n : Ideal.sqrt (Ideal.ofBits .f32 0x46800000#32) = ((128 : ℝ) : EReal) := by
  rw [ofBits_n, Ideal.sqrt_coe, if_neg (by norm_num)]
  rw [show (16384 : ℝ) = 128 * 128 by norm_num, Real.sqrt_mul_self (by norm_num)]

/-- An entry divided by √n and squared is the entry's square times 1/n, on every extended real. -/
theorem div_sqrt_sq (y : EReal) :
    Ideal.div y (Ideal.sqrt (Ideal.ofBits .f32 0x46800000#32)) * Ideal.div y (Ideal.sqrt (Ideal.ofBits .f32 0x46800000#32))
      = y * y * Ideal.ofBits .f32 0x38800000#32 := by
  rw [sqrt_n, ofBits_inv_n, Ideal.div_coe (by norm_num : (128 : ℝ) ≠ 0), mul_mul_mul_comm, ← EReal.coe_mul]
  congr 2; norm_num

/-- A nonnegative real factor distributes over any finite sum of extended reals. -/
theorem sum_mul_of_nonneg_of_ne_top {ι : Type*} (s : Finset ι) (a : ι → EReal) {c : EReal} (h0 : 0 ≤ c) (ht : c ≠ ⊤) :
    (∑ i ∈ s, a i) * c = ∑ i ∈ s, a i * c := by
  classical
  induction s using Finset.induction_on with
  | empty => simp
  | insert i s hi ih =>
    rw [Finset.sum_insert hi, Finset.sum_insert hi, EReal.right_distrib_of_nonneg_of_ne_top h0 ht, ih]

/-- THE LAW, for one column: the sum of squares scaled once by 2⁻¹⁴ is the sum of the squares of the entries each
    divided by √16384. -/
theorem column (y : Fin 16384 → EReal) :
    (∑ i, y i * y i) * Ideal.ofBits .f32 0x38800000#32
      = ∑ i, Ideal.div (y i) (Ideal.sqrt (Ideal.ofBits .f32 0x46800000#32))
          * Ideal.div (y i) (Ideal.sqrt (Ideal.ofBits .f32 0x46800000#32)) := by
  rw [sum_mul_of_nonneg_of_ne_top _ _
    (by rw [ofBits_inv_n]; exact_mod_cast (by norm_num : (0 : ℝ) ≤ 1 / 16384))
    (by rw [ofBits_inv_n]; exact EReal.coe_ne_top _)]
  exact Finset.sum_congr rfl fun i _ => (div_sqrt_sq (y i)).symm

/-! ## The running sum, block of 1024 rows by block -/

/-- Row `i`'s square in a column, as a term indexed by a natural number (zero past the last row). -/
def sq (y : Fin 16384 → EReal) (i : ℕ) : EReal := if h : i < 16384 then y ⟨i, h⟩ * y ⟨i, h⟩ else 0

theorem sq_of_lt (y : Fin 16384 → EReal) {i : ℕ} (h : i < 16384) : sq y i = y ⟨i, h⟩ * y ⟨i, h⟩ := dif_pos h

/-- The sum of the squares of a column's first `1024·(n+1)` rows: what has been accumulated after block `n`. -/
def upTo (y : Fin 16384 → EReal) (n : ℕ) : EReal := ∑ i ∈ Finset.range (1024 * (n + 1)), sq y i

/-- After the first block: that block's 1024 squares. -/
theorem upTo_zero (y : Fin 16384 → EReal) : upTo y 0 = ∑ r : Fin 1024, sq y (1024 * 0 + r.val) := by
  unfold upTo
  rw [Finset.sum_range]
  simp

/-- One more block: the 1024 squares of rows `1024·(n+1) + r` are added. -/
theorem upTo_succ (y : Fin 16384 → EReal) (n : ℕ) :
    upTo y (n + 1) = upTo y n + ∑ r : Fin 1024, sq y (1024 * (n + 1) + r.val) := by
  unfold upTo
  rw [show 1024 * (n + 1 + 1) = 1024 * (n + 1) + 1024 by ring, Finset.sum_range_add, Finset.sum_range (fun r => sq y (1024 * (n + 1) + r))]

/-- After the sixteenth block: the whole column's sum of squares. -/
theorem upTo_last (y : Fin 16384 → EReal) : upTo y 15 = ∑ i, y i * y i := by
  unfold upTo
  rw [show 1024 * (15 + 1) = 16384 by norm_num, Finset.sum_range]
  exact Finset.sum_congr rfl fun i _ => sq_of_lt y i.isLt

end Cert.ColumnLaw

end
-- ==== Proof.Accumulate.lean ====
/-
  What the kernel's scratch row and output block hold, grid point by grid point, on the extended reals.

  Grid point t (of 16) is handed rows 1024·t … 1024·t + 1023 of the input, all 2048 columns. The scratch row, carried from
  point to point, therefore holds after point n, in entry j, the sum of the squares of column j's first 1024·(n+1) entries:
  zero plus the first block's squares at the first point, one more block's squares at each later one. By induction on the
  point — the sixteen points are never enumerated. After the last point that is the whole column's sum of squares, and the
  output block is the loss of Proof/Spec.lean.
-/
import proofs.«107510_j25975962206274_2_alg».proof.Proof.Gen.KernelIdeal.Frame
import proofs.«107510_j25975962206274_2_alg».proof.Proof.CaseValues
import proofs.«107510_j25975962206274_2_alg».proof.Proof.Payloads
import proofs.«107510_j25975962206274_2_alg».proof.Proof.ColumnLaw
import proofs.«107510_j25975962206274_2_alg».proof.Proof.Spec

noncomputable section

namespace Cert.KernelIdeal.Accumulate

open Idealize.ShloMosaic Idealize.ShloMosaic.TcCoe Idealize.ShloMosaic.ValueIdx Idealize.SL.Sem
open Cert.KernelIdeal Cert.KernelIdeal.Gen

/-! ## The cases, as steps of the recursion (any float instance) -/

section AnyInstance

variable {F : FTy → Type} [FloatOps F]
variable (m : (ℓ : Loc nD τ sig) → Buf (Elt F) ℓ)

/-- Point `t`'s block of the input, as a [1024, 2048] array. -/
abbrev blk (c : Dev nD) (t : Fin cfg0.N) : Vec F S1024x2048 .f32 := iblk m c 0 t

/-- At the first point the scratch row is the update of the zero row by the point's block. -/
theorem scratch_at_first (c : Dev nD) (t : Fin cfg0.N) (h0 : t.val % 16 = 0) (h1 : ¬t.val % 16 = 15) :
    (outsAt0 m c t.val t.isLt).2 = k0_pay2 (blk m c t) k0_pay1 := by
  rw [outsAt0_A m c t h0 h1]
  dsimp only
  exact CaseValues.scratch_first c (grid0.coords t) (ms0_0 t) (hs0_0 t) (ms0_1 t) (hs0_1 t) scM0_0 (Memref.isWhole_whole _)
    ((hcond0_0 t).mpr h0) (fun h => h1 ((hcond0_1 t).mp h)) (iblk m c 0 t)

/-- At a middle point it is the update of what the point before left. -/
theorem scratch_at_middle (c : Dev nD) (t : Fin cfg0.N) (h0 : ¬t.val % 16 = 0) (h1 : ¬t.val % 16 = 15) :
    (outsAt0 m c t.val t.isLt).2
      = k0_pay2 (blk m c t) (outsAt0 m c (t.val - 1) (Nat.lt_of_le_of_lt (Nat.sub_le _ _) t.isLt)).2 := by
  rw [outsAt0_B m c t h0 h1]
  dsimp only
  exact CaseValues.scratch_middle c (grid0.coords t) (ms0_0 t) (hs0_0 t) (ms0_1 t) (hs0_1 t) scM0_0 (Memref.isWhole_whole _)
    (fun h => h0 ((hcond0_0 t).mp h)) (fun h => h1 ((hcond0_1 t).mp h)) (iblk m c 0 t)
    (outsAt0 m c (t.val - 1) (Nat.lt_of_le_of_lt (Nat.sub_le _ _) t.isLt)).2

/-- At the last point likewise, -/
theorem scratch_at_last (c : Dev nD) (t : Fin cfg0.N) (h0 : ¬t.val % 16 = 0) (h1 : t.val % 16 = 15) :
    (outsAt0 m c t.val t.isLt).2
      = k0_pay2 (blk m c t) (outsAt0 m c (t.val - 1) (Nat.lt_of_le_of_lt (Nat.sub_le _ _) t.isLt)).2 := by
  rw [outsAt0_C m c t h0 h1]
  dsimp only
  exact CaseValues.scratch_last c (grid0.coords t) (ms0_0 t) (hs0_0 t) (ms0_1 t) (hs0_1 t) scM0_0 (Memref.isWhole_whole _)
    (fun h => h0 ((hcond0_0 t).mp h)) ((hcond0_1 t).mpr h1) (iblk m c 0 t)
    (outsAt0 m c (t.val - 1) (Nat.lt_of_le_of_lt (Nat.sub_le _ _) t.isLt)).2

/-- and the output block is the finish of that row. -/
theorem out_at_last (c : Dev nD) (t : Fin cfg0.N) (h0 : ¬t.val % 16 = 0) (h1 : t.val % 16 = 15) :
    (outsAt0 m c t.val t.isLt).1
      = k0_pay3 (k0_pay2 (blk m c t) (outsAt0 m c (t.val - 1) (Nat.lt_of_le_of_lt (Nat.sub_le _ _) t.isLt)).2) := by
  rw [outsAt0_C m c t h0 h1]
  dsimp only
  exact CaseValues.out_last c (grid0.coords t) (ms0_0 t) (hs0_0 t) (ms0_1 t) (hs0_1 t) scM0_0 (Memref.isWhole_whole _)
    (fun h => h0 ((hcond0_0 t).mp h)) ((hcond0_1 t).mpr h1) (iblk m c 0 t)
    (outsAt0 m c (t.val - 1) (Nat.lt_of_le_of_lt (Nat.sub_le _ _) t.isLt)).2

/-- Every point after the first updates what the point before left. -/
theorem scratch_succ (c : Dev nD) (n : ℕ) (hn : n + 1 < cfg0.N) :
    (outsAt0 m c (n + 1) hn).2 = k0_pay2 (blk m c ⟨n + 1, hn⟩) (outsAt0 m c n (Nat.lt_of_succ_lt hn)).2 := by
  have hN : n + 1 < 16 := lt_of_lt_of_eq hn N_0
  have h0 : ¬(n + 1) % 16 = 0 := by omega
  by_cases h1 : (n + 1) % 16 = 15
  · exact scratch_at_last m c ⟨n + 1, hn⟩ h0 h1
  · exact scratch_at_middle m c ⟨n + 1, hn⟩ h0 h1

/-- Point `t`'s block starts at row 1024·t and column 0 of the input — decided once over the grid. -/
theorem idx_facts : ∀ t : Fin cfg0.N, win0_0.index t 0 = t.val ∧ win0_0.index t 1 = 0 :=
  (by decide +kernel : ∀ t : Fin grid0.N, win0_0.index t 0 = t.val ∧ win0_0.index t 1 = 0)

/-- Entry (r, j) of point `t`'s block is entry (1024·t + r, j) of the input. -/
theorem iblk_apply (c : Dev nD) (t : Fin cfg0.N) (r : Fin 1024) (j : Fin 2048) (h : 1024 * t.val + r.val < 16384) :
    blk m c t (ix2 r j) = m ((c : Thread nD τ).loc main_arg0) (ix2 ⟨1024 * t.val + r.val, h⟩ j) := by
  unfold blk iblk
  rw [View.read_apply]
  show V m c main_arg0 _ = m (c.tc.loc main_arg0) _
  unfold V
  congr 1
  funext a
  apply Fin.ext
  match a with
  | ⟨0, _⟩ => show win0_0.index t 0 * 1024 + 1 * r.val = 1024 * t.val + r.val; rw [(idx_facts t).1]; omega
  | ⟨1, _⟩ => show win0_0.index t 1 * 2048 + 1 * j.val = j.val; rw [(idx_facts t).2]; omega

end AnyInstance

/-! ## On the extended reals -/

variable (m : (ℓ : Loc nD τ sig) → Buf (Elt Ideal) ℓ)

/-- Column `j` of the input on core `c`. -/
abbrev col (c : Dev nD) (j : Fin 2048) : Fin 16384 → EReal := fun i => m ((c : Thread nD τ).loc main_arg0) (ix2 i j)

/-- The squares down column `j` of point `t`'s block are the column's squares at rows 1024·t + r. -/
theorem block_sum (c : Dev nD) (t : Fin cfg0.N) (j : Fin 2048) :
    ∑ r : Fin 1024, blk m c t (ix2 r j) * blk m c t (ix2 r j)
      = ∑ r : Fin 1024, Cert.ColumnLaw.sq (col m c j) (1024 * t.val + r.val) := by
  have hN : t.val < 16 := lt_of_lt_of_eq t.isLt N_0
  refine Finset.sum_congr rfl fun r _ => ?_
  have h : 1024 * t.val + r.val < 16384 := by have := r.isLt; omega
  rw [Cert.ColumnLaw.sq_of_lt _ h, iblk_apply m c t r j h]

/-- THE INVARIANT: after point `n` the scratch row's entry `j` is the sum of the squares of column `j`'s first
    1024·(n+1) entries. -/
theorem scratch_eq (c : Dev nD) : ∀ (n : ℕ) (hn : n < cfg0.N) (u : Fin 1) (j : Fin 2048),
    (outsAt0 m c n hn).2 (ix2 u j) = Cert.ColumnLaw.upTo (col m c j) n
  | 0, hn, u, j => by
    refine (congrFun (scratch_at_first m c ⟨0, hn⟩ rfl (by show ¬(0 : ℕ) % 16 = 15; decide)) (ix2 u j)).trans ?_
    refine (Payloads.update_apply (blk m c ⟨0, hn⟩) (k0_pay1 (F := Ideal)) u j).trans ?_
    rw [Payloads.zero_row_apply, zero_add, block_sum m c ⟨0, hn⟩ j, Cert.ColumnLaw.upTo_zero]
  | n + 1, hn, u, j => by
    refine (congrFun (scratch_succ m c n hn) (ix2 u j)).trans ?_
    refine (Payloads.update_apply (blk m c ⟨n + 1, hn⟩) (outsAt0 m c n (Nat.lt_of_succ_lt hn)).2 u j).trans ?_
    rw [scratch_eq c n (Nat.lt_of_succ_lt hn) u j, block_sum m c ⟨n + 1, hn⟩ j, Cert.ColumnLaw.upTo_succ]

/-- The last point. -/
theorem h15 : 15 < cfg0.N := by rw [show cfg0.N = 16 from N_0]; decide

/-- After the last point the output block's one entry is the loss. -/
theorem out_eq (c : Dev nD) (u w : Fin 1) :
    (outsAt0 m c 15 h15).1 (ix2 u w) = Cert.Spec.loss (m ((c : Thread nD τ).loc main_arg0)) := by
  refine (congrFun (out_at_last m c ⟨15, h15⟩ (by show ¬(15 : ℕ) % 16 = 0; decide) rfl) (ix2 u w)).trans ?_
  refine (Payloads.finish_apply _ u w).trans ?_
  unfold Cert.Spec.loss
  refine Finset.sum_congr rfl fun j _ => congrArg Cert.Spec.dev ?_
  refine (congrFun (scratch_at_last m c ⟨15, h15⟩ (by show ¬(15 : ℕ) % 16 = 0; decide) rfl).symm (ix2 w j)).trans ?_
  rw [scratch_eq m c 15 h15 w j, Cert.ColumnLaw.upTo_last]
  rfl

end Cert.KernelIdeal.Accumulate

end
-- ==== Proof.KernelValue.lean ====
/-
  The kernel's run, read: its scalar result is the loss of Proof/Spec.lean.

  The kernel's output array is ONE [1, 1] block, written back once, after the last grid point; that point left the loss in
  it (Proof/Accumulate.lean), and the one block at zero offsets IS the array. The host then reshapes the [1, 1] array to a
  scalar: the same number at the scalar's one index. The argument array is only read.
-/
import proofs.«107510_j25975962206274_2_alg».proof.Proof.Accumulate
import Idealize.ShloMosaic.Lib.Pipeline.Value
import Idealize.ShloMosaic.Lib.StableHlo.Run

noncomputable section

namespace Cert.KernelIdeal.KernelValue

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The [1, 1] output array holding the loss of core `c`'s input. -/
abbrev lossBlock (c : Dev nD) : Buf (Elt Ideal) ((c : Thread nD τ).loc main_v0) :=
  fun _ => Cert.Spec.loss (m ((c : Thread nD τ).loc main_arg0))

/-- What the last point leaves in the output's staging buffer is that array. -/
theorem out_block (c : Dev nD) : (outsAt0 m c 15 Accumulate.h15).1 = lossBlock m c := by
  funext y
  obtain ⟨u, w, rfl⟩ : ∃ (u w : Fin 1), y = ix2 u w := ⟨y 0, y 1, eq_ix2 y⟩
  exact Accumulate.out_eq m c u w

/-- The one write-back, after point 15, writes it: block (0, 0) of the [1, 1] array at zero offsets is the array. -/
theorem flushed_eq (c : Dev nD) (t : Fin cfg0.N) (hf : (cfg0.win 1).flush t = true) :
    (dats m 0 c).flushed 1 t = ((cfg0.win 1).blk t).view.read (Elt Ideal) (lossBlock m c) := by
  have hN : cfg0.N = 16 := N_0
  have ht : t.val = 15 := by have := (flush0_1 t).mp hf; have := t.isLt; omega
  obtain rfl : t = t0_15 := Fin.ext ht
  show (cfg0.win 1).cut (grid0.coords t0_15) ((dats m 0 c).after 1 t0_15) = _
  rw [after0_1, show (outsAt0 m c t0_15.val t0_15.isLt).1 = lossBlock m c from out_block m c]
  have hz' : (fun a => win0_1.index t0_15 a * main_v0.ty.shape.size a) = fun _ => 0 :=
    funext fun a => by fin_cases a <;> decide
  exact (Memref.read_access_unit_zero (Elt Ideal) main_v0 hz' (fun a => by rw [congrFun hz' a]; simp) (lossBlock m c)).symm

/-- So the output array ends holding the loss: point 15's block covers it. -/
theorem final_block (c : Dev nD) : (dats m 0 c).arrAt 1 cfg0.N = lossBlock m c :=
  (dats m 0 c).arrAt_eq_of_cover 1 (lossBlock m c) (flushed_eq m c) fun i =>
    ⟨t0_15, (flush0_1 t0_15).mpr rfl, by
      show i ∈ ((View.whole main_v0).slice (win0_1.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_1.index t0_15 0 * win0_1.size 0 ≤ (i 0 : Nat) ∧ (i 0 : Nat) < win0_1.index t0_15 0 * win0_1.size 0 + win0_1.xsize (grid0.coords t0_15) 0
                  rw [show win0_1.index t0_15 0 * win0_1.size 0 = 0 from by decide +kernel, show win0_1.xsize (grid0.coords t0_15) 0 = 1 from by decide +kernel]; omega
      | ⟨1, _⟩ => show win0_1.index t0_15 1 * win0_1.size 1 ≤ (i 1 : Nat) ∧ (i 1 : Nat) < win0_1.index t0_15 1 * win0_1.size 1 + win0_1.xsize (grid0.coords t0_15) 1
                  rw [show win0_1.index t0_15 1 * win0_1.size 1 = 0 from by decide +kernel, show win0_1.xsize (grid0.coords t0_15) 1 = 1 from by decide +kernel]; omega⟩

/-- The host's reshape of that array to a scalar is the specification's result. -/
theorem tail_eq (c : Dev nD) :
    Pipeline.afterTail₀ cfgs (dats m) 0 (V0 m) [hostOps1] c main_v1 = Cert.Spec.G (m ((c : Thread nD τ).loc main_arg0)) := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.tc.devRef main_v0)
      = lossBlock m c :=
    (Pipeline.withArrays_arr spec0 launch0.win.arr_inj c _ _ 1).trans (final_block m c)
  funext i
  show shapeCast main_v1.ty.shape (Pipeline.withArrays (cfgs 0).spec c (V0 m c) (fun w => (dats m 0 c).arrAt w (cfgs 0).N)
    (Proc.tc.devRef main_v0)) shapeCasts_S1x1_S_ i = _
  rw [e]
  rfl

/-- THE KERNEL'S RUN, READ: every weakly fair execution terminates with the scalar result at the loss of the argument
    array, and the argument array unchanged. -/
theorem run : θ_run defs (onTc (τ := τ) (main (F := Ideal))) ⟨m, fun _ => 0, ρ⟩ fun r => ∀ c : Dev nD,
      r.2.mem ((c : Thread nD τ).loc main_v1) = Cert.Spec.G (m ((c : Thread nD τ).loc main_arg0))
      ∧ r.2.mem ((c : Thread nD τ).loc main_arg0) = m ((c : Thread nD τ).loc main_arg0) :=
  (θ_run defs _ _).mono (fun _ h c =>
      ⟨((h c).2 main_v1 (Pipeline.mem_restRefs_of main_v1 rfl (fun w => by fin_cases w <;> decide))).trans (tail_eq m c),
        ((h c).1 0).trans (((dats m 0 c).arrAt_in 0 rfl _).trans ((A_eq m c 0).trans (V_main_arg0 m c)))⟩)
    (run_main m ρ)

end Cert.KernelIdeal.KernelValue

end
-- ==== Proof.RefValue.lean ====
/-
  The reference, read at the extended reals, computes the loss of Proof/Spec.lean.

  It divides every entry by √16384 first, squares, and sums each column from 0; then takes |1 − ·| and sums the columns
  from 0. Column by column, Σᵢ (Y(i,j)/√n)·(Y(i,j)/√n) = (Σᵢ Y(i,j)·Y(i,j))·2⁻¹⁴ is the law of Proof/ColumnLaw.lean, which
  holds for all extended reals; the two leading zeros are the additive unit.
-/
import proofs.«107510_j25975962206274_2_alg».proof.Proof.Gen.ReferenceIdeal.Read
import proofs.«107510_j25975962206274_2_alg».proof.Proof.ColumnLaw
import proofs.«107510_j25975962206274_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

/-- The reduced row index `k` put back beside column `j` is the entry `(k, j)`. -/
theorem idx_col (j : Fin 2048) (k : Fin 16384) : idx_main_v4 (ix1 j) k = ix2 k j :=
  funext fun a => Fin.ext (by match a with | ⟨0, _⟩ => rfl | ⟨1, _⟩ => rfl)

/-- One entry of the reference's squared, scaled array. -/
theorem sq_apply (Y : S16384x2048.Idx → EReal) (i : S16384x2048.Idx) :
    val_main_v3 (F := Ideal) Y i
      = Ideal.div (Y i) (Ideal.sqrt (Ideal.ofBits .f32 0x46800000#32))
          * Ideal.div (Y i) (Ideal.sqrt (Ideal.ofBits .f32 0x46800000#32)) := by
  rw [val_main_v3_apply, val_main_v2_apply, val_main_v1_apply, val_main_v0_apply, val_main_cst_apply]
  rfl

/-- The reference's column sums are the specification's, scaled. -/
theorem col_apply (Y : S16384x2048.Idx → EReal) (j : Fin 2048) :
    val_main_v4 (F := Ideal) Y (ix1 j) = Cert.Spec.colSumSq Y j * Ideal.ofBits .f32 0x38800000#32 := by
  rw [val_main_v4_apply, val_main_cst_0_apply]
  unfold Cert.Spec.colSumSq
  rw [Cert.ColumnLaw.column (fun i => Y (ix2 i j))]
  show Ideal.ofBits .f32 0x00000000#32 + _ = _
  rw [Ideal.ofBits_zero_f32, zero_add]
  refine Finset.sum_congr rfl fun k _ => ?_
  rw [sq_apply, idx_col]

/-- THE REFERENCE IS THE SPECIFICATION. -/
theorem reference_eq (Y : S16384x2048.Idx → EReal) : val_main_v8 (F := Ideal) Y = Cert.Spec.G Y := by
  funext i
  rw [val_main_v8_apply, val_main_cst_2_apply, Cert.Spec.sum_idx1]
  show Ideal.ofBits .f32 0x00000000#32 + _ = Cert.Spec.loss Y
  rw [Ideal.ofBits_zero_f32, zero_add]
  unfold Cert.Spec.loss
  refine Finset.sum_congr rfl fun j _ => ?_
  rw [val_main_v7_apply, val_main_v6_apply, val_main_v5_apply, val_main_cst_1_apply, col_apply]
  rfl

end Cert.ReferenceIdeal.RefValue

end
-- ==== Proof.lean ====
/-
  A TPU kernel for the "semidefinite loss" of a matrix Y : f32[16384, 2048] against its jnp reference, equal over the
  extended reals:

      loss(Y) = Σⱼ | 1 − (1/n)·Σᵢ Y(i, j)² |,        n = 16384 rows, j over 2048 columns.

  THE KERNEL streams Y through sixteen row blocks of 1024 rows. It keeps a row of 2048 partial column sums in a scratch
  buffer carried from block to block — zeroed at the first block, each block adding its column sums of squares — and at the
  last block scales the finished row by the float 2⁻¹⁴ (exactly 1/16384), takes |1 − ·|, sums the row, and stores the one
  number; the host reshapes that [1, 1] array to a scalar.
  THE REFERENCE divides every entry by √16384 first, squares, sums each column, takes |1 − ·| and sums.

  Why they agree, on every extended real (no finiteness of the input is used):
    • √16384 = 128, division by a nonzero real is multiplication by its reciprocal, and products commute, so
      (y/√n)·(y/√n) = (y·y)·(1/n);
    • the factor 1/n is a nonnegative real, so it moves across a finite sum of extended reals;
    • a sum taken block by block is the sum (addition of extended reals is commutative and associative), and the
      programs' leading zeros are the additive unit.

  The modules: Proof/ColumnLaw (that arithmetic), Proof/Spec (the loss as one function), Proof/RefValue (the reference
  computes it), Proof/CaseValues, Proof/Payloads, Proof/Accumulate, Proof/KernelValue (the kernel computes it: what one
  block's run leaves, entry by entry; the induction over the blocks; the write-back and the host's reshape). The three
  frames are the generated runs; the idealization rewrote nothing.
-/
import proofs.«107510_j25975962206274_2_alg».proof.Defs
import proofs.«107510_j25975962206274_2_alg».proof.Proof.Gen.Kernel
import proofs.«107510_j25975962206274_2_alg».proof.Proof.Gen.Kernel.Frame
import proofs.«107510_j25975962206274_2_alg».proof.Proof.Gen.KernelIdeal
import proofs.«107510_j25975962206274_2_alg».proof.Proof.Gen.KernelIdeal.Frame
import proofs.«107510_j25975962206274_2_alg».proof.Proof.Gen.ReferenceIdeal
import proofs.«107510_j25975962206274_2_alg».proof.Proof.Gen.ReferenceIdeal.Run
import proofs.«107510_j25975962206274_2_alg».proof.Proof.Gen.ReferenceIdeal.Read
import proofs.«107510_j25975962206274_2_alg».proof.Proof.Gen.Pre_finite_inputs
import proofs.«107510_j25975962206274_2_alg».proof.Proof.KernelValue
import proofs.«107510_j25975962206274_2_alg».proof.Proof.RefValue
import Idealize.ShloMosaic.Adequacy
import Idealize.ShloMosaic.Init

noncomputable section

namespace Cert.Proof

open Idealize.ShloMosaic Idealize.SL.Sem

/-- The kernel as printed runs and leaves its argument alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end at the loss of the (common) argument array. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.reference_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
